-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S4096 : Shape := ⟨1, ![4096]⟩
abbrev S4096x4096 : Shape := ⟨2, ![4096, 4096]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4194304 .f32) (main_arg1 : FVec F S4096 .f32) (main_arg2 : FVec F S4096x4096 .f32) (main_arg3 : IVec S4194304 32) (main_arg4 : IVec S4194304 32) : IVec S_ 1 :=
  let main_v0 : FVec F S4194304 .f32 := Host.absf main_arg0
  let main_cst : FVec F S_ .f32 := constant S_ .f32 0x7F800000#32
  let main_v1 : FVec F S4194304 .f32 := broadcastInDim S4194304 ![] bcast_S_S4194304 main_cst
  let main_v2 : IVec S4194304 1 := cmpf .olt main_v0 main_v1
  let main_c : IVec S_ 1 := constantI S_ 1 1#1
  let main_v3 : IVec S_ 1 := (fun x v => Host.reduce IntOp.andi x v reducesTo_S4194304_S_d0 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4194304 : Shape := ⟨1, ![4194304]⟩
abbrev S4096 : Shape := ⟨1, ![4096]⟩
abbrev S4096x4096 : Shape := ⟨2, ![4096, 4096]⟩
abbrev S_ : Shape := ⟨0, ![]⟩
abbrev S8192x4096 : Shape := ⟨2, ![8192, 4096]⟩
abbrev S4194304x1 : Shape := ⟨2, ![4194304, 1]⟩
abbrev S4194304x2 : Shape := ⟨2, ![4194304, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 29
  | .vmem => 9
  | .smem => 0
  | _ => 0

abbrev bufTy : (tb : Table) → Fin (tcTables nBuf tb) → BufTy
  | .hbm, ⟨0, _⟩ => ⟨S4194304, .f32⟩
  | .hbm, ⟨1, _⟩ => ⟨S4096, .f32⟩
  | .hbm, ⟨2, _⟩ => ⟨S4096x4096, .f32⟩
  | .hbm, ⟨3, _⟩ => ⟨S4194304, .i32⟩
  | .hbm, ⟨4, _⟩ => ⟨S4194304, .i32⟩
  | .hbm, ⟨5, _⟩ => ⟨S_, .f32⟩
  | .hbm, ⟨6, _⟩ => ⟨S8192x4096, .f32⟩
  | .hbm, ⟨7, _⟩ => ⟨S_, .i32⟩
  | .hbm, ⟨8, _⟩ => ⟨S4194304, .i32⟩
  | .hbm, ⟨9, _⟩ => ⟨S4194304, .i1⟩
  | .hbm, ⟨10, _⟩ => ⟨S_, .i32⟩
  | .hbm, ⟨11, _⟩ => ⟨S4194304, .i32⟩
  | .hbm, ⟨12, _⟩ => ⟨S4194304, .i32⟩
  | .hbm, ⟨13, _⟩ => ⟨S4194304, .i32⟩
  | .hbm, ⟨14, _⟩ => ⟨S_, .i32⟩
  | .hbm, ⟨15, _⟩ => ⟨S4194304, .i32⟩
  | .hbm, ⟨16, _⟩ => ⟨S4194304, .i1⟩
  | .hbm, ⟨17, _⟩ => ⟨S_, .i32⟩
  | .hbm, ⟨18, _⟩ => ⟨S4194304, .i32⟩
  | .hbm, ⟨19, _⟩ => ⟨S4194304, .i32⟩
  | .hbm, ⟨20, _⟩ => ⟨S4194304, .i32⟩
  | .hbm, ⟨21, _⟩ => ⟨S4194304x1, .i32⟩
  | .hbm, ⟨22, _⟩ => ⟨S4194304x1, .i32⟩
  | .hbm, ⟨23, _⟩ => ⟨S4194304x2, .i32⟩
  | .hbm, ⟨24, _⟩ => ⟨S8192x4096, .f32⟩
  | .hbm, ⟨25, _⟩ => ⟨S8192x4096, .bf16⟩
  | .hbm, ⟨26, _⟩ => ⟨S4096x4096, .bf16⟩
  | .hbm, ⟨27, _⟩ => ⟨S1x4096, .f32⟩
  | .hbm, ⟨28, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8192x4096 : S_.BroadcastsInDim S8192x4096 (![] : Fin 0 → Fin S8192x4096.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S8192x4096_S4194304x2_S4194304_n_01_01_1_wf : ScatterDims.WF S8192x4096 S4194304x2 S4194304 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S8192x4096_S4194304x2_S4194304_n_01_01_1 : ScatterDims S8192x4096 S4194304x2 S4194304 where
  updateWindowDims := []
  insertedWindowDims := [0, 1]
  scatterDimsToOperandDims := [0, 1]
  indexVectorDim := 1
  wf := scatter_S8192x4096_S4194304x2_S4194304_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v15) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4194304 : Shape := ⟨1, ![4194304]⟩
abbrev S4096 : Shape := ⟨1, ![4096]⟩
abbrev S4096x4096 : Shape := ⟨2, ![4096, 4096]⟩
abbrev S_ : Shape := ⟨0, ![]⟩
abbrev S8192x4096 : Shape := ⟨2, ![8192, 4096]⟩
abbrev S4194304x1 : Shape := ⟨2, ![4194304, 1]⟩
abbrev S4194304x2 : Shape := ⟨2, ![4194304, 2]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4194304, .f32⟩
  | .hbm, ⟨1, _⟩ => ⟨S4096, .f32⟩
  | .hbm, ⟨2, _⟩ => ⟨S4096x4096, .f32⟩
  | .hbm, ⟨3, _⟩ => ⟨S4194304, .i32⟩
  | .hbm, ⟨4, _⟩ => ⟨S4194304, .i32⟩
  | .hbm, ⟨5, _⟩ => ⟨S_, .f32⟩
  | .hbm, ⟨6, _⟩ => ⟨S8192x4096, .f32⟩
  | .hbm, ⟨7, _⟩ => ⟨S_, .i32⟩
  | .hbm, ⟨8, _⟩ => ⟨S4194304, .i32⟩
  | .hbm, ⟨9, _⟩ => ⟨S4194304, .i1⟩
  | .hbm, ⟨10, _⟩ => ⟨S_, .i32⟩
  | .hbm, ⟨11, _⟩ => ⟨S4194304, .i32⟩
  | .hbm, ⟨12, _⟩ => ⟨S4194304, .i32⟩
  | .hbm, ⟨13, _⟩ => ⟨S4194304, .i32⟩
  | .hbm, ⟨14, _⟩ => ⟨S_, .i32⟩
  | .hbm, ⟨15, _⟩ => ⟨S4194304, .i32⟩
  | .hbm, ⟨16, _⟩ => ⟨S4194304, .i1⟩
  | .hbm, ⟨17, _⟩ => ⟨S_, .i32⟩
  | .hbm, ⟨18, _⟩ => ⟨S4194304, .i32⟩
  | .hbm, ⟨19, _⟩ => ⟨S4194304, .i32⟩
  | .hbm, ⟨20, _⟩ => ⟨S4194304, .i32⟩
  | .hbm, ⟨21, _⟩ => ⟨S4194304x1, .i32⟩
  | .hbm, ⟨22, _⟩ => ⟨S4194304x1, .i32⟩
  | .hbm, ⟨23, _⟩ => ⟨S4194304x2, .i32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S8192x4096_S4194304x2_S4194304_n_01_01_1_wf : ScatterDims.WF S8192x4096 S4194304x2 S4194304 [] [0, 1] [0, 1] 1
  dot_S8192x4096_S4096x4096_S8192x4096_1_0_0_1_n_n_wf : DotDims.WF S8192x4096 S4096x4096 S8192x4096 [1] [0] [0] [1] [] []

variable [Facts₀]

def scatter_S8192x4096_S4194304x2_S4194304_n_01_01_1 : ScatterDims S8192x4096 S4194304x2 S4194304 where
  updateWindowDims := []
  insertedWindowDims := [0, 1]
  scatterDimsToOperandDims := [0, 1]
  indexVectorDim := 1
  wf := scatter_S8192x4096_S4194304x2_S4194304_n_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Step.lean ====
/-
  What one grid step leaves behind, as values.

  The kernel body keeps a 1024×1024 accumulator in a scratch buffer. Every step loads the accumulator, a block `a` of the
  left matrix and a block `b` of the right matrix, and stores `acc + a·b` back (the product taken into a zero
  accumulator). The first step of each group of four first overwrites the accumulator with zeros, so it leaves
  `0 + a·b`; the last step of the group also stores `acc + bias` (the bias row repeated down the rows) into the
  output block. Each lemma below says that what a step leaves in the scratch, or in the output block, is that
  arithmetic of the values the step found — for any number system.
-/
import proofs.«164035_j40261023433168_1_alg».proof.Proof.Gen.KernelIdeal.Frame
import Idealize.ShloMosaic.Lib.Pipeline.Value
import Idealize.ShloMosaic.Lib.Tactic

set_option maxRecDepth 16384

noncomputable section

namespace Cert.KernelIdeal.Step

open Cert.KernelIdeal Cert.KernelIdeal.Gen Idealize.ShloMosaic Idealize.ShloMosaic.TcCoe Idealize.ShloMosaic.Tactic Idealize.SL.Sem

variable {F : FTy → Type} [FloatOps F]

/-- The offsets of a store that starts at the block's origin. -/
theorem origin : (![0, 0] : Fin 2 → Nat) = fun _ => 0 := funext fun a => by fin_cases a <;> rfl

/-- A middle step (neither first nor last of its group) leaves `acc + a·b` in the accumulator. -/
theorem acc_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero origin]
  simp only [View.readAt_eq_ld, h3.read_unread, h4.read_unread, h7.read_unread, View.ld_unit_zero (S := S1024x1024) origin]

/-- The first step of a group stores zeros, reads them back, and leaves `0 + a·b`. -/
theorem acc_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x1024 .bf16) (x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- The last step of a group leaves `acc + a·b` in the accumulator, like a middle step, -/
theorem acc_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero origin]
  simp only [View.readAt_eq_ld, h3.read_unread, h4.read_unread, h7.read_unread, View.ld_unit_zero (S := S1024x1024) origin]

/-- and stores that accumulator plus the bias row into the output block. -/
theorem out_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin, View.readCov_unit_zero (S := S1024x1024) _ origin]
  simp only [View.readAt_eq_ld, h3.read_unread, h4.read_unread, h5.read_unread, h7.read_unread,
    View.ld_unit_zero (S := S1024x1024) origin, View.ld_unit_zero (S := S1x1024) origin]

end Cert.KernelIdeal.Step

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.Arith.lean ====
/-
  One grid step's arithmetic, entry by entry, over the extended reals.

  With exact arithmetic the zero block is `0` at every entry; the accumulate step is, at entry `(p, q)`, the old
  accumulator entry plus the dot product of row `p` of the left block with column `q` of the right block (the
  matrix product into a zero accumulator is that plain sum); and the closing step adds to the accumulator entry the
  bias row's entry of the same column, whatever the row.
-/
import proofs.«164035_j40261023433168_1_alg».proof.Proof.Gen.KernelIdeal.Skeleton
import proofs.«164035_j40261023433168_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Arith

open Cert.KernelIdeal Cert.KernelIdeal.Gen Idealize.ShloMosaic Idealize.ShloMosaic.ValueIdx

/-- The kernel's product record is the plain `1024 × 1024` by `1024 × 1024` one: left contracted on columns, right on rows. -/
theorem dims_plain : dot_S1024x1024_S1024x1024_S1024x1024_1_0_0_1_n_n = DotDims.plain 1024 1024 1024 := rfl

/-- The block the reset stores is zero everywhere. -/
theorem zero_apply (p q : Fin 1024) : k0_pay1 (F := Ideal) (ix2 p q) = 0 := by
  unfold k0_pay1
  simp only [shapeCast_self]
  show Ideal.ofBits .f32 0x00000000#32 = 0
  exact Ideal.ofBits_zero_f32

/-- The accumulate step at `(p, q)`: the old entry plus `∑ s, a (p, s) · b (s, q)`. -/
theorem accum_apply (acc : Vec Ideal S1024x1024 .f32) (a b : Vec Ideal S1024x1024 .bf16) (p q : Fin 1024) :
    k0_pay2 (F := Ideal) acc a b (ix2 p q) = acc (ix2 p q) + ∑ s : Fin 1024, a (ix2 p s) * b (ix2 s q) := by
  unfold k0_pay2
  simp only [shapeCast_self]
  rw [addf_apply, dims_plain]
  exact congrArg (acc (ix2 p q) + ·) (PlainDot.matmul_zero_apply 1024 1024 1024 none a b p q)

/-- The closing step at `(p, q)`: the accumulator entry plus the bias row at column `q`. -/
theorem bias_apply (acc : Vec Ideal S1024x1024 .f32) (bias : Vec Ideal S1x1024 .f32) (p q : Fin 1024) :
    k0_pay3 (F := Ideal) acc bias (ix2 p q) = acc (ix2 p q) + bias (ix2 0 q) := by
  unfold k0_pay3
  simp only [shapeCast_self]
  rw [addf_apply]
  exact congrArg (acc (ix2 p q) + ·) (broadcastTo_1b_ab_apply bias broadcasts_S1x1024_S1024x1024 p q)

end Cert.KernelIdeal.Arith

end
-- ==== Proof.LibBlockSum.lean ====
/-
  Blocked sums and running accumulators, over any commutative additive monoid (the extended reals among them:
  their addition is commutative and associative with `0` neutral, so none of this asks for finiteness).

  * `sum_blocks`: a sum of `n * B` terms is the sum over `n` consecutive blocks of the `B` terms in each.
  * `acc`: an accumulator that starts at `0` and adds one summand per step; `acc_zero`, `acc_succ` are its
    two steps and `acc_last_blocks` says that after the last of `n` block sums it holds the whole sum.
-/
import Idealize.ShloMosaic.Lib.ValueIdx

namespace Cert.BlockSum

variable {M : Type*} [AddCommMonoid M]

/-- A sum over `Fin (n * B)` is the sum over the blocks `b : Fin n` of the sums over the positions
    `p : Fin B` inside a block, the term at `B * b + p`. -/
theorem sum_blocks (n B : ℕ) (f : ℕ → M) :
    ∑ k : Fin (n * B), f k.val = ∑ b : Fin n, ∑ p : Fin B, f (B * b.val + p.val) := by
  rw [← Finset.sum_product', Finset.univ_product_univ, ← Equiv.sum_comp finProdFinEquiv]
  refine Finset.sum_congr rfl (fun x _ => ?_)
  obtain ⟨b, p⟩ := x
  show f (p.val + B * b.val) = f (B * b.val + p.val)
  rw [Nat.add_comm]

/-- The accumulator after step `j`: `0`, then the summands `g 0 … g j` added in order. -/
def acc (g : ℕ → M) (j : ℕ) : M := 0 + ∑ b ∈ Finset.range (j + 1), g b

/-- After the first step the accumulator holds `0 + g 0`. -/
theorem acc_zero (g : ℕ → M) : acc g 0 = 0 + g 0 := by
  unfold acc
  rw [Finset.sum_range_one]

/-- Each later step adds its summand to what the step before left. -/
theorem acc_succ (g : ℕ → M) (j : ℕ) : acc g (j + 1) = acc g j + g (j + 1) := by
  unfold acc
  rw [Finset.sum_range_succ _ (j + 1), add_assoc]

/-- When the summands are the `n` block sums of `f`, the accumulator after the last block holds the whole sum. -/
theorem acc_last_blocks (n B : ℕ) (f : ℕ → M) :
    acc (fun b => ∑ p : Fin B, f (B * b + p.val)) n = ∑ k : Fin ((n + 1) * B), f k.val := by
  unfold acc
  rw [zero_add, Finset.sum_range (fun b => ∑ p : Fin B, f (B * b + p.val))]
  exact (sum_blocks (n + 1) B f).symm

end Cert.BlockSum
-- ==== Proof.Spec.lean ====
/-
  The function both programs compute, and why summing in four blocks changes nothing.

  For a weight matrix `W` (8192 × 4096), an input matrix `X` (4096 × 4096) and a bias vector `b` (4096 entries) the
  result at row `r`, column `c` is `(∑ k, W (r, k) · X (k, c)) + b c` over the extended reals.

  The kernel forms the sum over `k` in four consecutive blocks of 1024 terms, adding one block's partial sum to a
  running accumulator that starts at zero. Addition of extended reals is commutative and associative with `0` neutral,
  so the accumulator after the fourth block is the whole sum; no finiteness is needed. To speak of "row
  `1024·i + p`" without carrying bounds around, an array entry is extended by zero to all pairs of naturals (`entry`).
-/
import proofs.«164035_j40261023433168_1_alg».proof.Proof.LibBlockSum
import Idealize.ShloMosaic.Lib.ValueIdx
import Idealize.ShloMosaic.PureOps.Ideal

set_option maxRecDepth 16384

noncomputable section

namespace Cert.Spec

open Idealize.ShloMosaic Idealize.ShloMosaic.ValueIdx

/-- Entry `(r, c)` of an `R × C` array of extended reals, and `0` outside it. -/
def entry {R C : ℕ} (A : (⟨2, ![R, C]⟩ : Shape).Idx → EReal) (r c : ℕ) : EReal :=
  if h : r < R ∧ c < C then A (ix2 ⟨r, h.1⟩ ⟨c, h.2⟩) else 0

/-- Inside the array it is the array's entry. -/
theorem entry_of_lt {R C : ℕ} (A : (⟨2, ![R, C]⟩ : Shape).Idx → EReal) (r c : ℕ) (hr : r < R) (hc : c < C) :
    entry A r c = A (ix2 ⟨r, hr⟩ ⟨c, hc⟩) := dif_pos ⟨hr, hc⟩

/-- The result: `W · X` plus the bias along the columns. -/
def affine (W : (⟨2, ![8192, 4096]⟩ : Shape).Idx → EReal) (X : (⟨2, ![4096, 4096]⟩ : Shape).Idx → EReal)
    (b : Fin 4096 → EReal) : (⟨2, ![8192, 4096]⟩ : Shape).Idx → EReal :=
  fun i => (∑ k : Fin 4096, W (ix2 (i 0) k) * X (ix2 k (i 1))) + b (i 1)

/-- At row `r`, column `c`. -/
theorem affine_apply (W : (⟨2, ![8192, 4096]⟩ : Shape).Idx → EReal) (X : (⟨2, ![4096, 4096]⟩ : Shape).Idx → EReal)
    (b : Fin 4096 → EReal) (r : Fin 8192) (c : Fin 4096) :
    affine W X b (ix2 r c) = (∑ k : Fin 4096, W (ix2 r k) * X (ix2 k c)) + b c := rfl

/-- The `k`-th product of the dot product of row `r` of `W` with column `c` of `X`. -/
def term (W : (⟨2, ![8192, 4096]⟩ : Shape).Idx → EReal) (X : (⟨2, ![4096, 4096]⟩ : Shape).Idx → EReal) (r c k : ℕ) : EReal :=
  entry W r k * entry X k c

/-- The partial dot product over the `j`-th block of 1024 consecutive positions. -/
def part (W : (⟨2, ![8192, 4096]⟩ : Shape).Idx → EReal) (X : (⟨2, ![4096, 4096]⟩ : Shape).Idx → EReal) (r c j : ℕ) : EReal :=
  ∑ s : Fin 1024, term W X r c (1024 * j + s.val)

/-- The accumulator after the fourth block holds the whole dot product. -/
theorem acc_four (W : (⟨2, ![8192, 4096]⟩ : Shape).Idx → EReal) (X : (⟨2, ![4096, 4096]⟩ : Shape).Idx → EReal)
    (r c : ℕ) (hr : r < 8192) (hc : c < 4096) :
    Cert.BlockSum.acc (part W X r c) 3 = ∑ k : Fin 4096, W (ix2 ⟨r, hr⟩ k) * X (ix2 k ⟨c, hc⟩) := by
  have h := Cert.BlockSum.acc_last_blocks 3 1024 (term W X r c)
  refine h.trans ?_
  show ∑ k : Fin 4096, term W X r c k.val = _
  refine Finset.sum_congr rfl fun k _ => ?_
  unfold term
  rw [entry_of_lt W r k.val hr k.isLt, entry_of_lt X k.val c k.isLt hc]

end Cert.Spec

end
-- ==== Proof.Grid.lean ====
/-
  Where each grid step reads and writes.

  The 128 grid steps are numbered `t = 16·i + 4·j + k` with `i < 8` the block row of the result, `j < 4` its block
  column and `k < 4` the position along the contraction. Step `t` reads block `(i, k)` of the weight matrix, block
  `(k, j)` of the input matrix and block `(0, j)` of the bias row, and its output block is `(i, j)`. Every block is
  1024 wide on each axis it has more than one entry on, so entry `(p, s)` of a block at block index `(u, v)` is entry
  `(1024·u + p, 1024·v + s)` of the array — whatever the array holds: the reads are stated for an arbitrary array
  first, and only then for the three arrays the kernel's region finds.
-/
import proofs.«164035_j40261023433168_1_alg».proof.Proof.Gen.KernelIdeal.Frame
import proofs.«164035_j40261023433168_1_alg».proof.Proof.Spec
import Idealize.ShloMosaic.Lib.Pipeline.Value
import Idealize.ShloMosaic.Lib.ValueIdx

set_option maxRecDepth 16384

noncomputable section

namespace Cert.KernelIdeal.Grid

open Cert.KernelIdeal Cert.KernelIdeal.Gen Idealize.ShloMosaic Idealize.ShloMosaic.TcCoe Idealize.SL.Sem Idealize.ShloMosaic.ValueIdx Cert.Spec

/-- The four index maps in closed form, decided over the 128 steps. -/
theorem block_index : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Entry `(p, s)` of the weight block of step `t`, of any 8192 × 4096 array. -/
theorem weight_read (A : (⟨2, ![8192, 4096]⟩ : Shape).Idx → EReal) (t : Fin cfg0.N) (p s : Fin 1024) :
    (((cfg0.win 0).blk t).view.read (Elt Ideal) A : Vec Ideal S1024x1024 .bf16) (ix2 p s)
      = entry A (1024 * (t.val / 16) + p.val) (1024 * (t.val % 4) + s.val) := by
  have hN : t.val < 128 := lt_of_lt_of_eq t.isLt N_0
  obtain ⟨e0, e1, -⟩ := block_index t
  rw [entry_of_lt A _ _ (by omega) (by omega)]
  show A (((cfg0.win 0).blk t).view.emb (ix2 p s)) = A _
  refine congrArg A (funext fun a => Fin.ext ?_)
  match a with
  | ⟨0, _⟩ => show win0_0.index t (0 : Fin 2) * 1024 + 1 * p.val = 1024 * (t.val / 16) + p.val; rw [e0]; omega
  | ⟨1, _⟩ => show win0_0.index t (1 : Fin 2) * 1024 + 1 * s.val = 1024 * (t.val % 4) + s.val; rw [e1]; omega

/-- Entry `(s, q)` of the input block of step `t`, of any 4096 × 4096 array. -/
theorem input_read (A : (⟨2, ![4096, 4096]⟩ : Shape).Idx → EReal) (t : Fin cfg0.N) (s q : Fin 1024) :
    (((cfg0.win 1).blk t).view.read (Elt Ideal) A : Vec Ideal S1024x1024 .bf16) (ix2 s q)
      = entry A (1024 * (t.val % 4) + s.val) (1024 * (t.val / 4 % 4) + q.val) := by
  have hN : t.val < 128 := lt_of_lt_of_eq t.isLt N_0
  obtain ⟨-, -, e0, e1, -⟩ := block_index t
  rw [entry_of_lt A _ _ (by omega) (by omega)]
  show A (((cfg0.win 1).blk t).view.emb (ix2 s q)) = A _
  refine congrArg A (funext fun a => Fin.ext ?_)
  match a with
  | ⟨0, _⟩ => show win0_1.index t (0 : Fin 2) * 1024 + 1 * s.val = 1024 * (t.val % 4) + s.val; rw [e0]; omega
  | ⟨1, _⟩ => show win0_1.index t (1 : Fin 2) * 1024 + 1 * q.val = 1024 * (t.val / 4 % 4) + q.val; rw [e1]; omega

/-- Entry `(0, q)` of the bias block of step `t`, of any 1 × 4096 array. -/
theorem bias_read (A : (⟨2, ![1, 4096]⟩ : Shape).Idx → EReal) (t : Fin cfg0.N) (q : Fin 1024) :
    (((cfg0.win 2).blk t).view.read (Elt Ideal) A : Vec Ideal S1x1024 .f32) (ix2 0 q)
      = entry A 0 (1024 * (t.val / 4 % 4) + q.val) := by
  have hN : t.val < 128 := lt_of_lt_of_eq t.isLt N_0
  obtain ⟨-, -, -, -, e0, e1, -⟩ := block_index t
  rw [entry_of_lt A _ _ (by omega) (by omega)]
  show A (((cfg0.win 2).blk t).view.emb (ix2 0 q)) = A _
  refine congrArg A (funext fun a => Fin.ext ?_)
  match a with
  | ⟨0, _⟩ => show win0_2.index t (0 : Fin 2) * 1 + 1 * 0 = 0; rw [e0]
  | ⟨1, _⟩ => show win0_2.index t (1 : Fin 2) * 1024 + 1 * q.val = 1024 * (t.val / 4 % 4) + q.val; rw [e1]; omega

/-- Entry `(p, q)` of the output block of step `t`, of any 8192 × 4096 array. -/
theorem output_read (A : (⟨2, ![8192, 4096]⟩ : Shape).Idx → EReal) (t : Fin cfg0.N) (p q : Fin 1024) :
    (((cfg0.win 3).blk t).view.read (Elt Ideal) A : Vec Ideal S1024x1024 .f32) (ix2 p q)
      = entry A (1024 * (t.val / 16) + p.val) (1024 * (t.val / 4 % 4) + q.val) := by
  have hN : t.val < 128 := lt_of_lt_of_eq t.isLt N_0
  obtain ⟨-, -, -, -, -, -, e0, e1⟩ := block_index t
  rw [entry_of_lt A _ _ (by omega) (by omega)]
  show A (((cfg0.win 3).blk t).view.emb (ix2 p q)) = A _
  refine congrArg A (funext fun a => Fin.ext ?_)
  match a with
  | ⟨0, _⟩ => show win0_3.index t (0 : Fin 2) * 1024 + 1 * p.val = 1024 * (t.val / 16) + p.val; rw [e0]; omega
  | ⟨1, _⟩ => show win0_3.index t (1 : Fin 2) * 1024 + 1 * q.val = 1024 * (t.val / 4 % 4) + q.val; rw [e1]; omega

variable (m : (ℓ : Loc nD τ sig) → Buf (Elt Ideal) ℓ)

/-- The weight matrix, the input matrix and the bias row as the kernel's region finds them. They are kept as names:
    nothing below looks inside them. -/
def weights (c : Dev nD) : (⟨2, ![8192, 4096]⟩ : Shape).Idx → EReal := V m c main_v15
def inputs (c : Dev nD) : (⟨2, ![4096, 4096]⟩ : Shape).Idx → EReal := V m c main_v16
def biasRow (c : Dev nD) : (⟨2, ![1, 4096]⟩ : Shape).Idx → EReal := V m c main_v17

/-- The three blocks step `t` is handed, as plain matrices of extended reals. -/
def wblk (c : Dev nD) (t : Fin cfg0.N) : (⟨2, ![1024, 1024]⟩ : Shape).Idx → EReal := iblk m c 0 t
def xblk (c : Dev nD) (t : Fin cfg0.N) : (⟨2, ![1024, 1024]⟩ : Shape).Idx → EReal := iblk m c 1 t
def bblk (c : Dev nD) (t : Fin cfg0.N) : (⟨2, ![1, 1024]⟩ : Shape).Idx → EReal := iblk m c 2 t

/-- They are the reads above of the three arrays. -/
theorem weight_block (c : Dev nD) (t : Fin cfg0.N) (p s : Fin 1024) :
    wblk m c t (ix2 p s) = entry (weights m c) (1024 * (t.val / 16) + p.val) (1024 * (t.val % 4) + s.val) :=
  weight_read (weights m c) t p s

theorem input_block (c : Dev nD) (t : Fin cfg0.N) (s q : Fin 1024) :
    xblk m c t (ix2 s q) = entry (inputs m c) (1024 * (t.val % 4) + s.val) (1024 * (t.val / 4 % 4) + q.val) :=
  input_read (inputs m c) t s q

theorem bias_block (c : Dev nD) (t : Fin cfg0.N) (q : Fin 1024) :
    bblk m c t (ix2 0 q) = entry (biasRow m c) 0 (1024 * (t.val / 4 % 4) + q.val) :=
  bias_read (biasRow m c) t q

end Cert.KernelIdeal.Grid

end
-- ==== Proof.Running.lean ====
/-
  What the accumulator holds after every grid step.

  Fix a step `n`, and an entry `(p, q)` of its blocks: it belongs to row `1024·(n / 16) + p` and column
  `1024·(n / 4 mod 4) + q` of the result. Steps `n - (n mod 4), …, n` share that row and column and walk through the
  contraction blocks `0, …, n mod 4`. The first of them resets the accumulator and adds block 0's partial dot product;
  each later one adds its own block's. So after step `n` the accumulator entry is the running sum of the partial dot
  products of blocks `0 … n mod 4`, started from `0` — by induction on `n`, using what each kind of step leaves.
-/
import proofs.«164035_j40261023433168_1_alg».proof.Proof.Step
import proofs.«164035_j40261023433168_1_alg».proof.Proof.Arith
import proofs.«164035_j40261023433168_1_alg».proof.Proof.Grid

set_option maxRecDepth 16384

noncomputable section

namespace Cert.KernelIdeal.Running

open Cert.KernelIdeal Cert.KernelIdeal.Gen Idealize.ShloMosaic Idealize.ShloMosaic.TcCoe Idealize.SL.Sem Idealize.ShloMosaic.ValueIdx Cert.Spec Cert.BlockSum Cert.KernelIdeal.Grid

variable (m : (ℓ : Loc nD τ sig) → Buf (Elt Ideal) ℓ)

/-- The result row, and the result column, that entry `(p, q)` of step `n`'s blocks belongs to. -/
def rowOf (n : ℕ) (p : Fin 1024) : ℕ := 1024 * (n / 16) + p.val
def colOf (n : ℕ) (q : Fin 1024) : ℕ := 1024 * (n / 4 % 4) + q.val

/-- One accumulate step at `(p, q)`, on step `n`'s blocks: the old entry plus the partial dot product of contraction
    block `n mod 4` for that entry's row and column. -/
theorem accum_step (c : Dev nD) (n : ℕ) (h : n < cfg0.N) (xs : Vec Ideal S1024x1024 .f32) (p q : Fin 1024) :
    k0_pay2 (F := Ideal) xs (wblk m c ⟨n, h⟩) (xblk m c ⟨n, h⟩) (ix2 p q)
      = xs (ix2 p q) + part (weights m c) (inputs m c) (rowOf n p) (colOf n q) (n % 4) := by
  refine (Arith.accum_apply xs (wblk m c ⟨n, h⟩) (xblk m c ⟨n, h⟩) p q).trans ?_
  refine congrArg (xs (ix2 p q) + ·) ?_
  unfold part term rowOf colOf
  refine Finset.sum_congr rfl fun s _ => ?_
  rw [weight_block m c ⟨n, h⟩ p s, input_block m c ⟨n, h⟩ s q]

/-- THE INVARIANT: the accumulator after step `n`, at `(p, q)`. -/
theorem scratch_after (c : Dev nD) : ∀ (n : ℕ) (h : n < cfg0.N) (p q : Fin 1024),
    ((outsAt0 m c n h).2 : Vec Ideal S1024x1024 .f32) (ix2 p q)
      = acc (part (weights m c) (inputs m c) (rowOf n p) (colOf n q)) (n % 4)
  | 0, h, p, q => by
    rw [outsAt0_A m c ⟨0, h⟩ rfl (show ¬(0 % 4 = 3) by decide)]
    dsimp only
    rw [Step.acc_first]
    refine (accum_step m c 0 h _ p q).trans ?_
    rw [Arith.zero_apply, show (0 : ℕ) % 4 = 0 from rfl]
    exact (acc_zero (part (weights m c) (inputs m c) (rowOf 0 p) (colOf 0 q))).symm
  | n + 1, h, p, q => by
    have hN : n + 1 < 128 := lt_of_lt_of_eq h N_0
    by_cases h0 : (n + 1) % 4 = 0
    · have h1 : ¬(n + 1) % 4 = 3 := by omega
      rw [outsAt0_A m c ⟨n + 1, h⟩ h0 h1]
      dsimp only
      rw [Step.acc_first]
      refine (accum_step m c (n + 1) h _ p q).trans ?_
      rw [Arith.zero_apply, h0]
      exact (acc_zero (part (weights m c) (inputs m c) (rowOf (n + 1) p) (colOf (n + 1) q))).symm
    · have ih := scratch_after c n (Nat.lt_of_succ_lt h) p q
      have er : rowOf n p = rowOf (n + 1) p := by unfold rowOf; omega
      have ec : colOf n q = colOf (n + 1) q := by unfold colOf; omega
      have ek : (n + 1) % 4 = n % 4 + 1 := by omega
      by_cases h1 : (n + 1) % 4 = 3
      · rw [outsAt0_C m c ⟨n + 1, h⟩ h0 h1]
        dsimp only
        rw [Step.acc_last]
        refine (accum_step m c (n + 1) h _ p q).trans ?_
        show ((outsAt0 m c n _).2 : Vec Ideal S1024x1024 .f32) (ix2 p q) + _ = _
        rw [ih, er, ec, ek, acc_succ]
      · rw [outsAt0_B m c ⟨n + 1, h⟩ h0 h1]
        dsimp only
        rw [Step.acc_middle]
        refine (accum_step m c (n + 1) h _ p q).trans ?_
        show ((outsAt0 m c n _).2 : Vec Ideal S1024x1024 .f32) (ix2 p q) + _ = _
        rw [ih, er, ec, ek, acc_succ]

end Cert.KernelIdeal.Running

end
-- ==== Proof.Result.lean ====
/-
  The array the kernel leaves: `W · X + bias`.

  The output block of the group `(i, j)` is written back once, after the group's last step. By then the accumulator
  entry `(p, q)` is the running sum of all four partial dot products of row `1024·i + p` and column `1024·j + q`,
  which is the whole dot product; the closing step adds the bias entry of that column. So the block written back is
  the block `(i, j)` of `W · X + bias`. The 32 blocks `(i, j)` tile the 8192 × 4096 result, each written by the
  step `16·i + 4·j + 3`, so the whole array ends at that function.
-/
import proofs.«164035_j40261023433168_1_alg».proof.Proof.Running
import proofs.«164035_j40261023433168_1_alg».proof.Proof.Gen.KernelIdeal.Value

set_option maxRecDepth 16384

noncomputable section

namespace Cert.KernelIdeal.Result

open Cert.KernelIdeal Cert.KernelIdeal.Gen Idealize.ShloMosaic Idealize.ShloMosaic.TcCoe Idealize.SL.Sem Idealize.ShloMosaic.ValueIdx Cert.Spec Cert.BlockSum Cert.KernelIdeal.Grid Cert.KernelIdeal.Running
open Idealize.ShloMosaic.Pipeline (Dat)

variable (m : (ℓ : Loc nD τ sig) → Buf (Elt Ideal) ℓ) (ρ : Dev nD → PrngReg)

/-- What the kernel's result array ends holding: the weights times the inputs, plus the bias row's entry of the column. -/
def result (c : Dev nD) : (⟨2, ![8192, 4096]⟩ : Shape).Idx → EReal :=
  affine (weights m c) (inputs m c) (fun j => entry (biasRow m c) 0 j.val)

/-- At a group's last step the output block is the closing arithmetic of what the step leaves in the accumulator. -/
theorem closing (c : Dev nD) (t : Fin cfg0.N) (h0 : ¬t.val % 4 = 0) (h1 : t.val % 4 = 3) :
    ((outsAt0 m c t.val t.isLt).1 : Vec Ideal S1024x1024 .f32)
      = k0_pay3 (F := Ideal) ((outsAt0 m c t.val t.isLt).2) (bblk m c t) := by
  rw [outsAt0_C m c t h0 h1]
  dsimp only
  rw [Step.out_last, Step.acc_last]
  rfl

/-- That block is the step's block of the result. -/
theorem closing_value (c : Dev nD) (t : Fin cfg0.N) (h1 : t.val % 4 = 3) :
    (k0_pay3 (F := Ideal) ((outsAt0 m c t.val t.isLt).2) (bblk m c t) : Vec Ideal S1024x1024 .f32)
      = (((cfg0.win 3).blk t).view.read (Elt Ideal) (result m c) : Vec Ideal S1024x1024 .f32) := by
  have hN : t.val < 128 := lt_of_lt_of_eq t.isLt N_0
  funext j
  obtain ⟨p, q, rfl⟩ : ∃ (p q : Fin 1024), j = ix2 p q := ⟨j 0, j 1, eq_ix2 j⟩
  rw [Arith.bias_apply, scratch_after m c t.val t.isLt p q, h1, bias_block m c t q, output_read (result m c) t p q]
  unfold rowOf colOf
  rw [entry_of_lt (result m c) _ _ (by omega) (by omega)]
  unfold result
  rw [affine_apply, acc_four (weights m c) (inputs m c) _ _ (by omega) (by omega)]

/-- The write-back moves the whole block: the window's blocks tile the array. -/
theorem whole_block (t : Fin cfg0.N) (X : Vec Ideal S1024x1024 .f32) : (cfg0.win 3).cut (grid0.coords t) X = X := rfl

/-- WHAT A WRITING STEP WRITES BACK is its block of the result. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have h0 : ¬t.val % 4 = 0 := by omega
  rw [Value.flushed3 m c t, closing m c t h0 h1]
  exact (whole_block t _).trans (closing_value m c t h1)

/-- An index of the result is in step `t`'s block iff each coordinate is in the block's range on its axis. -/
theorem mem_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v18).slice (win0_3.rect t)).set ↔ _
  rw [View.set_slice_whole, Rect.mem_set_unit]
  exact Iff.rfl

/-- Every index of the result is in the block of a writing step: the last step of its block's group. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  have hb : 16 * ((i 0).val / 1024) + 4 * ((i 1).val / 1024) + 3 < cfg0.N := by rw [hN]; omega
  obtain ⟨-, -, -, -, -, -, e0, e1⟩ := block_index ⟨_, hb⟩
  dsimp only at e0 e1
  refine ⟨⟨_, hb⟩, (flush0_3 _).mpr (by dsimp only; omega), ?_⟩
  rw [mem_block]
  intro a
  match a with
  | ⟨0, _⟩ =>
    show win0_3.index ⟨_, hb⟩ (0 : Fin 2) * 1024 ≤ (i 0).val ∧ (i 0).val < win0_3.index ⟨_, hb⟩ (0 : Fin 2) * 1024 + 1024
    rw [e0]; omega
  | ⟨1, _⟩ =>
    show win0_3.index ⟨_, hb⟩ (1 : Fin 2) * 1024 ≤ (i 1).val ∧ (i 1).val < win0_3.index ⟨_, hb⟩ (1 : Fin 2) * 1024 + 1024
    rw [e1]; omega

/-- THE RESULT ARRAY after the run. -/
theorem final (c : Dev nD) : (dats m 0 c).arrAt 3 cfg0.N = result m c :=
  (dats m 0 c).arrAt_eq_of_cover 3 (result m c) (flushed_eq m c) covered

/-- The kernel's run: the result array at `W · X + bias`, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.Host.lean ====
/-
  The three arrays the kernel's region is handed, in terms of the program's arguments.

  Before the region the program builds the dense weight matrix by scattering the nonzero values into a zero matrix
  (adding where coordinates repeat, negative coordinates wrapped around once), narrows it and the input matrix to a
  shorter float format, and reshapes the bias vector into a one-row matrix. With exact arithmetic a change of float
  format changes nothing, so the region finds: the scattered matrix itself — the very same term the reference program
  builds before its matrix product —, the input matrix as given, and the bias vector laid out as a row.
-/
import proofs.«164035_j40261023433168_1_alg».proof.Proof.Gen.KernelIdeal.Frame
import proofs.«164035_j40261023433168_1_alg».proof.Proof.Grid
import proofs.«164035_j40261023433168_1_alg».proof.Proof.Gen.ReferenceIdeal.Read
import Idealize.ShloMosaic.Lib.StableHlo.Run
import Idealize.ShloMosaic.Lib.Pipeline.Value
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem Idealize.ShloMosaic.ValueIdx Idealize.ShloMosaic.StableHlo Cert.Spec Cert.KernelIdeal.Grid

variable (m : (ℓ : Loc nD τ sig) → Buf (Elt Ideal) ℓ)

/-- With exact arithmetic, narrowing an array to a shorter float format leaves it as it was. -/
theorem narrow_eq {s : Shape} {φ ψ : FTy} (a : FVec Ideal s φ) (h : ψ.bits < φ.bits) :
    (truncf ψ a h : FVec Ideal s ψ) = a := funext fun i => truncf_apply a h i

/-- The input matrix reaches the region unchanged. -/
theorem inputs_eq (c : Dev nD) : inputs m c = m ((c : Thread nD τ).loc main_arg2) := by
  unfold inputs
  dsimp only [Gen.V, Gen.hostOps0]
  after_results
  rfl

/-- The bias row is the bias vector: entry `(0, j)` of the row is entry `j` of the vector. -/
theorem bias_eq (c : Dev nD) (j : Fin 4096) :
    entry (biasRow m c) 0 j.val = m ((c : Thread nD τ).loc main_arg1) (ix1 j) := by
  have e : biasRow m c = shapeCast S1x4096 (m ((c : Thread nD τ).loc main_arg1)) shapeCasts_S4096_S1x4096 := by
    unfold biasRow
    dsimp only [Gen.V, Gen.hostOps0]
    after_results
    rfl
  rw [entry_of_lt _ _ _ Nat.one_pos j.isLt, e]
  exact shapeCast_a_1a_apply (m ((c : Thread nD τ).loc main_arg1)) shapeCasts_S4096_S1x4096 ⟨0, Nat.one_pos⟩ ⟨j.val, j.isLt⟩

/-- The dense weight matrix as the kernel's program builds it: the nonzero values scattered into a zero matrix at their
    (row, column) pairs, adding where pairs repeat, a negative coordinate first wrapped around once. -/
def scattered (x0 : (⟨S4194304, .f32⟩ : BufTy).Contents (Elt Ideal)) (x3 x4 : (⟨S4194304, .i32⟩ : BufTy).Contents (Elt Ideal)) :
    (⟨S8192x4096, .f32⟩ : BufTy).Contents (Elt Ideal) :=
  Host.scatterAdd (F := Ideal) scatter_S8192x4096_S4194304x2_S4194304_n_01_01_1 (broadcastInDim S8192x4096 ![] bcast_S_S8192x4096 (constant (F := Ideal) S_ .f32 0x00000000#32)) (concatenate S4194304x2 1 [⟨S4194304x1, (broadcastInDim S4194304x1 ![0] bcast_S4194304_S4194304x1_0 (select (cmpi .slt (x3) (broadcastInDim S4194304 ![] bcast_S_S4194304 (constantI S_ 32 0#32))) (addi (x3) (broadcastInDim S4194304 ![] bcast_S_S4194304 (constantI S_ 32 8192#32))) (x3)))⟩, ⟨S4194304x1, (broadcastInDim S4194304x1 ![0] bcast_S4194304_S4194304x1_0 (select (cmpi .slt (x4) (broadcastInDim S4194304 ![] bcast_S_S4194304 (constantI S_ 32 0#32))) (addi (x4) (broadcastInDim S4194304 ![] bcast_S_S4194304 (constantI S_ 32 4096#32))) (x4)))⟩] concatenates_S4194304x1_S4194304x1_S4194304x2_d1) (x0)

set_option maxHeartbeats 4000000 in
/-- The weight matrix the region finds is that scattered matrix (narrowed, which changes nothing). -/
theorem weights_scattered (c : Dev nD) :
    weights m c = scattered (m ((c : Thread nD τ).loc main_arg0)) (m ((c : Thread nD τ).loc main_arg3)) (m ((c : Thread nD τ).loc main_arg4)) := by
  unfold weights scattered
  dsimp only [Gen.V, Gen.hostOps0]
  after_results
  exact narrow_eq _ _

/-- The reference program builds the same matrix, operation for operation. -/
theorem scattered_eq (x0 : (⟨S4194304, .f32⟩ : BufTy).Contents (Elt Ideal)) (x3 x4 : (⟨S4194304, .i32⟩ : BufTy).Contents (Elt Ideal)) :
    scattered x0 x3 x4 = Cert.ReferenceIdeal.Read.val_main_v14 (F := Ideal) x0 x3 x4 := rfl

/-- So the weight matrix the region finds is the matrix the reference multiplies by. -/
theorem weights_eq (c : Dev nD) :
    weights m c = Cert.ReferenceIdeal.Read.val_main_v14 (F := Ideal) (m ((c : Thread nD τ).loc main_arg0))
      (m ((c : Thread nD τ).loc main_arg3)) (m ((c : Thread nD τ).loc main_arg4)) :=
  (weights_scattered m c).trans (scattered_eq _ _ _)

end Cert.KernelIdeal.Host

end
-- ==== Proof.Ref.lean ====
/-
  The reference program computes the same function.

  Its result at row `r`, column `c` is the bias entry `c` (broadcast along the rows) plus the matrix product's entry,
  which over the extended reals is the plain sum `∑ k, W (r, k) · X (k, c)` with `W` the scattered weight matrix. That
  is the kernel's `W · X + bias` with the two summands in the other order; addition is commutative.
-/
import proofs.«164035_j40261023433168_1_alg».proof.Proof.Gen.ReferenceIdeal.Read
import proofs.«164035_j40261023433168_1_alg».proof.Proof.Spec
import Idealize.ShloMosaic.Lib.ValueIdx

set_option maxRecDepth 16384

noncomputable section

namespace Cert.ReferenceIdeal.Target

open Cert.ReferenceIdeal Cert.ReferenceIdeal.Read Idealize.ShloMosaic Idealize.ShloMosaic.ValueIdx Cert.Spec

/-- The reference's result is `W · X + bias`, `W` the scattered weights it builds first. -/
theorem result_eq (x0 : (⟨S4194304, .f32⟩ : BufTy).Contents (Elt Ideal)) (x1 : (⟨S4096, .f32⟩ : BufTy).Contents (Elt Ideal))
    (x2 : (⟨S4096x4096, .f32⟩ : BufTy).Contents (Elt Ideal)) (x3 x4 : (⟨S4194304, .i32⟩ : BufTy).Contents (Elt Ideal)) :
    val_main_v18 (F := Ideal) x0 x1 x2 x3 x4
      = affine (val_main_v14 (F := Ideal) x0 x3 x4) x2 (fun j => x1 (ix1 j)) := by
  funext i
  obtain ⟨r, c, rfl⟩ : ∃ (r : Fin 8192) (c : Fin 4096), i = ix2 r c := ⟨i 0, i 1, eq_ix2 i⟩
  have e1 : idx_main_v16 (idx_main_v17 (ix2 r c)) = ix1 c := funext fun a => by match a with | ⟨0, _⟩ => rfl
  have e2 : ∀ k : Fin 4096, lidx_main_v15 (ix2 r c) k = ix2 r k := fun k => funext fun a => by
    match a with
    | ⟨0, _⟩ => rfl
    | ⟨1, _⟩ => rfl
  have e3 : ∀ k : Fin 4096, ridx_main_v15 (ix2 r c) k = ix2 k c := fun k => funext fun a => by
    match a with
    | ⟨0, _⟩ => rfl
    | ⟨1, _⟩ => rfl
  rw [val_main_v18_apply, val_main_v17_apply, val_main_v16_apply, val_main_v15_apply, affine_apply, e1]
  simp only [e2, e3, Ideal.addf_def]
  exact add_comm _ _

end Cert.ReferenceIdeal.Target

end
-- ==== Proof.lean ====
/-
  A sparse linear layer: `W · X + bias`, with `W` (8192 × 4096) given by 4,194,304 (value, row, column) triples that are
  scattered into a zero matrix, values at repeated coordinates adding up; `X` is 4096 × 4096 and the bias has one entry
  per column of the result.

  The kernel builds the dense `W` on the host and then tiles the product: for each of the 8 × 4 output blocks of
  1024 × 1024 entries it walks the contraction in four blocks of 1024, keeping the running block product in an
  accumulator that is zeroed at the first of the four steps, and at the fourth adds the bias row and writes the block
  out. The reference scatters the same `W`, takes one whole matrix product and adds the bias in front.

  Over the extended reals the two results are equal entry by entry. A change of float format is the identity, so the
  kernel's blocks are blocks of the very `W` and `X` the reference multiplies. A sum of 4096 products is the sum of
  its four consecutive blocks of 1024, and an accumulator that starts at `0` and adds one block sum per step holds
  their total after the last: addition of extended reals is commutative and associative with `0` neutral, which is
  all this uses — no cancellation, no distributivity, hence no appeal to the inputs being finite. Finally
  `(W · X) + bias = bias + (W · X)` by commutativity. The kernel's idealization rewrote nothing.

  The modules: `Step` (what one grid step leaves in the accumulator and the output block), `Arith` (that arithmetic
  entry by entry), `Spec` (the function, and the four-block sum), `Grid` (which entries each step's blocks are),
  `Running` (the accumulator after every step, by induction), `Result` (the array the kernel leaves), `Host` (the
  arrays the kernel's tiled part is handed, in terms of the arguments), `Ref` (the reference computes the same function).
-/
import proofs.«164035_j40261023433168_1_alg».proof.Defs
import proofs.«164035_j40261023433168_1_alg».proof.Proof.Gen.Kernel
import proofs.«164035_j40261023433168_1_alg».proof.Proof.Gen.Kernel.Frame
import proofs.«164035_j40261023433168_1_alg».proof.Proof.Gen.KernelIdeal
import proofs.«164035_j40261023433168_1_alg».proof.Proof.Gen.KernelIdeal.Frame
import proofs.«164035_j40261023433168_1_alg».proof.Proof.Gen.KernelIdeal.Value
import proofs.«164035_j40261023433168_1_alg».proof.Proof.Gen.ReferenceIdeal
import proofs.«164035_j40261023433168_1_alg».proof.Proof.Gen.ReferenceIdeal.Run
import proofs.«164035_j40261023433168_1_alg».proof.Proof.Gen.ReferenceIdeal.Read
import proofs.«164035_j40261023433168_1_alg».proof.Proof.Gen.Pre_finite_inputs
import proofs.«164035_j40261023433168_1_alg».proof.Proof.Result
import proofs.«164035_j40261023433168_1_alg».proof.Proof.Host
import proofs.«164035_j40261023433168_1_alg».proof.Proof.Ref
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From arguments that agree, the kernel's result array ends at `W · X + bias` and the reference's at
    `bias + W · X` of the same `W`, `X` and bias: one function of the arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v18_eq, Cert.ReferenceIdeal.Target.result_eq, a0, a1, a2, a3, a4]
  show _ = Cert.KernelIdeal.Result.result m c
  unfold Cert.KernelIdeal.Result.result
  rw [Cert.KernelIdeal.Host.weights_eq m c, Cert.KernelIdeal.Host.inputs_eq m c]
  exact congrArg (Cert.Spec.affine _ _) (funext fun j => (Cert.KernelIdeal.Host.bias_eq m c j).symm)

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
